-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S10x128 : Shape := ⟨2, ![10, 128]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S10x128 : S_.BroadcastsInDim S10x128 (![] : Fin 0 → Fin S10x128.rank)
  reducesTo_S10x128_S_d0_1 : S10x128.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S10x128 .f32) (main_arg11 : FVec F S10 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S10x128 .f32 := Host.absf main_arg10
  let main_cst_16 : FVec F S_ .f32 := constant S_ .f32 0x7F800000#32
  let main_v45 : FVec F S10x128 .f32 := broadcastInDim S10x128 ![] bcast_S_S10x128 main_cst_16
  let main_v46 : IVec S10x128 1 := cmpf .olt main_v44 main_v45
  let main_c_17 : IVec S_ 1 := constantI S_ 1 1#1
  let main_v47 : IVec S_ 1 := (fun x v => Host.reduce IntOp.andi x v reducesTo_S10x128_S_d0_1 h_S_) main_v46 main_c_17
  let main_v48 : IVec S_ 1 := andi main_v43 main_v47
  let main_v49 : FVec F S10 .f32 := Host.absf main_arg11
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg5 : FVec F S128x128 .f32) (main_arg6 : FVec F S128x128 .f32) (main_arg7 : FVec F S128 .f32) (main_arg8 : FVec F S128x128 .f32) (main_arg9 : FVec F S128 .f32) (main_arg10 : FVec F S10x128 .f32) (main_arg11 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128 .f32) (main_arg10 : FVec F S10x128 .f32) (main_arg11 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S10x128 : Shape := ⟨2, ![10, 128]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S5000x128 : Shape := ⟨2, ![5000, 128]⟩
abbrev S50000x10 : Shape := ⟨2, ![50000, 10]⟩

abbrev nBuf : Space → Nat
  | .hbm => 62
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S10x128, .f32⟩
  | .hbm, ⟨11, _⟩ => ⟨S10, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S128x128, .f32⟩
  | .hbm, ⟨30, _⟩ => ⟨S128x128, .f32⟩
  | .hbm, ⟨31, _⟩ => ⟨S1x128, .f32⟩
  | .hbm, ⟨32, _⟩ => ⟨S50000x128, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x128, .f32⟩
  | .hbm, ⟨42, _⟩ => ⟨S_, .f32⟩
  | .hbm, ⟨43, _⟩ => ⟨S50000x128, .f32⟩
  | .hbm, ⟨44, _⟩ => ⟨S800000x1, .i32⟩
  | .hbm, ⟨45, _⟩ => ⟨S50000x128, .f32⟩
  | .hbm, ⟨46, _⟩ => ⟨S128x128, .f32⟩
  | .hbm, ⟨47, _⟩ => ⟨S128x128, .f32⟩
  | .hbm, ⟨48, _⟩ => ⟨S1x128, .f32⟩
  | .hbm, ⟨49, _⟩ => ⟨S50000x128, .f32⟩
  | .hbm, ⟨50, _⟩ => ⟨S_, .i32⟩
  | .hbm, ⟨51, _⟩ => ⟨S_, .f32⟩
  | .hbm, ⟨52, _⟩ => ⟨S128x128, .f32⟩
  | .hbm, ⟨53, _⟩ => ⟨S_, .i32⟩
  | .hbm, ⟨54, _⟩ => ⟨S_, .f32⟩
  | .hbm, ⟨55, _⟩ => ⟨S128, .f32⟩
  | .hbm, ⟨56, _⟩ => ⟨S128x128, .f32⟩
  | .hbm, ⟨57, _⟩ => ⟨S128x128, .f32⟩
  | .hbm, ⟨58, _⟩ => ⟨S1x128, .f32⟩
  | .hbm, ⟨59, _⟩ => ⟨S1x128, .f32⟩
  | .hbm, ⟨60, _⟩ => ⟨S50000x128, .f32⟩
  | .hbm, ⟨61, _⟩ => ⟨S50000x10, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_1 : Ref sig .tc := ⟨.hbm, 33, rfl⟩
abbrev main_v18 : Ref sig .tc := ⟨.hbm, 34, rfl⟩
abbrev main_v19 : Ref sig .tc := ⟨.hbm, 35, rfl⟩
abbrev main_c_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_4 : Ref sig .tc := ⟨.hbm, 50, rfl⟩
abbrev main_call0_v0 : Ref sig .tc := ⟨.hbm, 51, rfl⟩
abbrev main_v32 : Ref sig .tc := ⟨.hbm, 52, rfl⟩
abbrev main_c_5 : Ref sig .tc := ⟨.hbm, 53, rfl⟩
abbrev main_call1_v0 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  pads_S10x128_S128x128_01180_000 : S10x128.Pads (![0, 0] : Fin 2 → Nat) ![118, 0] ![0, 0] S128x128
  h_S_ : 0 < S_.numel
  pads_S10_S128_01180 : S10.Pads (![0] : Fin 1 → Nat) ![118] ![0] S128
  slices_S50000x128_S50000x10_0_0 : S50000x128.Slices ![0, 0] S50000x10
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v17) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v31) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v36) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v35) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v37) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v38) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S10x128 : Shape := ⟨2, ![10, 128]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S128x10 : Shape := ⟨2, ![128, 10]⟩
abbrev S50000x10 : Shape := ⟨2, ![50000, 10]⟩
abbrev S1x10 : Shape := ⟨2, ![1, 10]⟩

abbrev nBuf : Space → Nat
  | .hbm => 77
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S10x128, .f32⟩
  | .hbm, ⟨11, _⟩ => ⟨S10, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S128x128, .f32⟩
  | .hbm, ⟨30, _⟩ => ⟨S50000x128, .f32⟩
  | .hbm, ⟨31, _⟩ => ⟨S128x128, .f32⟩
  | .hbm, ⟨32, _⟩ => ⟨S50000x128, .f32⟩
  | .hbm, ⟨33, _⟩ => ⟨S50000x128, .f32⟩
  | .hbm, ⟨34, _⟩ => ⟨S1x128, .f32⟩
  | .hbm, ⟨35, _⟩ => ⟨S50000x128, .f32⟩
  | .hbm, ⟨36, _⟩ => ⟨S50000x128, .f32⟩
  | .hbm, ⟨37, _⟩ => ⟨S_, .f32⟩
  | .hbm, ⟨38, _⟩ => ⟨S50000x128, .f32⟩
  | .hbm, ⟨39, _⟩ => ⟨S50000x128, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x128, .f32⟩
  | .hbm, ⟨49, _⟩ => ⟨S_, .f32⟩
  | .hbm, ⟨50, _⟩ => ⟨S50000x128, .f32⟩
  | .hbm, ⟨51, _⟩ => ⟨S800000x1, .i32⟩
  | .hbm, ⟨52, _⟩ => ⟨S50000x128, .f32⟩
  | .hbm, ⟨53, _⟩ => ⟨S128x128, .f32⟩
  | .hbm, ⟨54, _⟩ => ⟨S50000x128, .f32⟩
  | .hbm, ⟨55, _⟩ => ⟨S128x128, .f32⟩
  | .hbm, ⟨56, _⟩ => ⟨S50000x128, .f32⟩
  | .hbm, ⟨57, _⟩ => ⟨S50000x128, .f32⟩
  | .hbm, ⟨58, _⟩ => ⟨S1x128, .f32⟩
  | .hbm, ⟨59, _⟩ => ⟨S50000x128, .f32⟩
  | .hbm, ⟨60, _⟩ => ⟨S50000x128, .f32⟩
  | .hbm, ⟨61, _⟩ => ⟨S_, .f32⟩
  | .hbm, ⟨62, _⟩ => ⟨S50000x128, .f32⟩
  | .hbm, ⟨63, _⟩ => ⟨S50000x128, .f32⟩
  | .hbm, ⟨64, _⟩ => ⟨S128x128, .f32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S128x10, .f32⟩
  | .hbm, ⟨73, _⟩ => ⟨S50000x10, .f32⟩
  | .hbm, ⟨74, _⟩ => ⟨S1x10, .f32⟩
  | .hbm, ⟨75, _⟩ => ⟨S50000x10, .f32⟩
  | .hbm, ⟨76, _⟩ => ⟨S50000x10, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_call0_cst : Ref sig .tc := ⟨.hbm, 37, rfl⟩
abbrev main_call0_v0 : Ref sig .tc := ⟨.hbm, 38, rfl⟩
abbrev main_v22 : Ref sig .tc := ⟨.hbm, 39, rfl⟩
abbrev main_c_1 : Ref sig .tc := ⟨.hbm, 40, rfl⟩
abbrev main_v23 : Ref sig .tc := ⟨.hbm, 41, rfl⟩
abbrev main_v24 : Ref sig .tc := ⟨.hbm, 42, rfl⟩
abbrev main_c_2 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_3 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_call1_cst : Ref sig .tc := ⟨.hbm, 61, rfl⟩
abbrev main_call1_v0 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call2_cst : Ref sig .tc := ⟨.hbm, 69, rfl⟩
abbrev main_call2_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S10x128_S128x10_1_0 : S10x128.Transposes [1, 0] S128x10
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x10_S50000x10_1_0_0_1_n_n_wf : DotDims.WF S50000x128 S128x10 S50000x10 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x10_S50000x10_1_0_0_1_n_n : DotDims S50000x128 S128x10 S50000x10 where
  lhsContracting := [1]
  rhsContracting := [0]
  lhsNonContracting := [0]
  rhsNonContracting := [1]
  lhsBatch := []
  rhsBatch := []
  wf := dot_S50000x128_S128x10_S50000x10_1_0_0_1_n_n_wf

class Facts : Prop extends Facts₀ where

variable [Facts]
-- ==== Proof.KRun.lean ====
/-
  The idealized kernel's run with its RESULT named.

  @main of the kernel program is eleven segments: stretches of host operations around three pipelined
  regions. The generated frame runs them through the several-regions launch theorem and, of the final state,
  keeps only that the argument arrays are unchanged. The same launch, read once more at the result buffer,
  says what the value claim needs: after every weakly fair execution the result array holds the contents the
  fold of the segments ends with (`Gen.W11`, the last stretch of host operations applied to what region 2 leaves),
  and the arguments are unchanged.
-/
import proofs.«165503_j75273596830207_1_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault; the result array then holds
    the last boundary's contents, and every argument array what it held at launch. -/
theorem run : θ_run defs (onTc (τ := τ) (main (F := F))) ⟨m, fun _ => 0, ρ⟩ (fun r => ∀ c : Dev nD,
      r.2.mem ((c.tc : Thread nD τ).loc main_v39) = W11 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v39 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c)⟩)

end Cert.KernelIdeal.Out

end
-- ==== Proof.Spec.lean ====
/-
  The network, written once as plain functions of arrays of extended reals.

  Node features are a 50000 × 128 array, every weight matrix arrives ALREADY TRANSPOSED (input feature × output
  feature) and every bias as a 1 × 128 row — the form in which both programs hand them to their matrix products.

  * `prod X W p q` is the entry (p, q) of the matrix product X · W: the sum over the 128 input features.
  * `convAt` is one graph-convolution layer at node p and output feature q: the root term X · R plus the neighbour
    term A · N (A the aggregated neighbour features), plus the bias, clamped below at zero.
  * `clampedAt` is a linear layer with the same clamp, `headAt` the two-layer head: a clamped linear layer followed by a
    plain linear layer.

  The zero of the clamp is kept as the float word both programs print, so it is never evaluated.
-/
import Idealize.ShloMosaic.PureOps.Ideal
import Idealize.ShloMosaic.Lib.ValueIdx

noncomputable section

namespace Cert.Spec

open Idealize.ShloMosaic Idealize.ShloMosaic.ValueIdx

/-- Node features: 50000 nodes, 128 features. -/
abbrev Nodes : Shape := ⟨2, ![50000, 128]⟩
/-- A transposed weight matrix: input feature × output feature. -/
abbrev Sq : Shape := ⟨2, ![128, 128]⟩
/-- A bias as a row. -/
abbrev Row : Shape := ⟨2, ![1, 128]⟩

/-- The clamp's zero: the float word `0x00000000` read as an extended real. -/
abbrev zero : EReal := Ideal.ofBits .f32 0x00000000#32

/-- Entry (p, q) of X · W. -/
def prod (X : Nodes.Idx → EReal) (W : Sq.Idx → EReal) (p : Fin 50000) (q : Fin 128) : EReal :=
  ∑ k : Fin 128, X (ix2 p k) * W (ix2 k q)

/-- One graph-convolution layer at (p, q): max((X·R + A·N) + b, 0). -/
def convAt (X A : Nodes.Idx → EReal) (R N : Sq.Idx → EReal) (b : Row.Idx → EReal) (p : Fin 50000) (q : Fin 128) : EReal :=
  max (prod X R p q + prod A N p q + b (ix2 0 q)) zero

/-- The layer as an array. -/
def conv (X A : Nodes.Idx → EReal) (R N : Sq.Idx → EReal) (b : Row.Idx → EReal) : Nodes.Idx → EReal :=
  fun i => convAt X A R N b (i 0) (i 1)

/-- A clamped linear layer at (p, q): max(X·W + b, 0). -/
def clampedAt (X : Nodes.Idx → EReal) (W : Sq.Idx → EReal) (b : Row.Idx → EReal) (p : Fin 50000) (q : Fin 128) : EReal :=
  max (prod X W p q + b (ix2 0 q)) zero

/-- The clamped linear layer as an array. -/
def clamped (X : Nodes.Idx → EReal) (W : Sq.Idx → EReal) (b : Row.Idx → EReal) : Nodes.Idx → EReal :=
  fun i => clampedAt X W b (i 0) (i 1)

/-- The head at (p, q): (max(X·W₁ + b₁, 0))·W₂ + b₂. -/
def headAt (X : Nodes.Idx → EReal) (W₁ : Sq.Idx → EReal) (b₁ : Row.Idx → EReal) (W₂ : Sq.Idx → EReal) (b₂ : Row.Idx → EReal)
    (p : Fin 50000) (q : Fin 128) : EReal :=
  prod (clamped X W₁ b₁) W₂ p q + b₂ (ix2 0 q)

/-- The head as an array (128 output columns, of which the programs keep the first ten). -/
def head (X : Nodes.Idx → EReal) (W₁ : Sq.Idx → EReal) (b₁ : Row.Idx → EReal) (W₂ : Sq.Idx → EReal) (b₂ : Row.Idx → EReal) :
    Nodes.Idx → EReal :=
  fun i => headAt X W₁ b₁ W₂ b₂ (i 0) (i 1)

theorem conv_ix2 (X A : Nodes.Idx → EReal) (R N : Sq.Idx → EReal) (b : Row.Idx → EReal) (p : Fin 50000) (q : Fin 128) :
    conv X A R N b (ix2 p q) = convAt X A R N b p q := rfl

theorem clamped_ix2 (X : Nodes.Idx → EReal) (W : Sq.Idx → EReal) (b : Row.Idx → EReal) (p : Fin 50000) (q : Fin 128) :
    clamped X W b (ix2 p q) = clampedAt X W b p q := rfl

theorem head_ix2 (X : Nodes.Idx → EReal) (W₁ : Sq.Idx → EReal) (b₁ : Row.Idx → EReal) (W₂ : Sq.Idx → EReal) (b₂ : Row.Idx → EReal)
    (p : Fin 50000) (q : Fin 128) : head X W₁ b₁ W₂ b₂ (ix2 p q) = headAt X W₁ b₁ W₂ b₂ p q := rfl

end Cert.Spec

end
-- ==== Proof.KPay.lean ====
/-
  What each kernel body computes, entry by entry, on extended reals.

  A body works on one tile of 5000 nodes. Its matrix products contract the 128 input features, the weight tiles are
  whole matrices, and the bias tile is one row repeated down the tile. Read at row p and column q of the tile:

  * the two graph-convolution bodies give  max((∑ₖ x[p,k]·r[k,q] + ∑ₖ a[p,k]·n[k,q]) + b[0,q], 0);
  * the head's body gives  ∑ₖ max(∑ⱼ x[p,j]·w₁[j,k] + b₁[0,k], 0)·w₂[k,q] + b₂[0,q].

  The changes of float format inside the bodies are the identity on extended reals, and a product into the zero
  accumulator is the bare sum.
-/
import proofs.«165503_j75273596830207_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx

local notation "D" => dot_S5000x128_S128x128_S5000x128_1_0_0_1_n_n

/-- The left operand's row is the output's row. -/
theorem lhs_row (i : S5000x128.Idx) (κ : (D).contr.Idx) : ((D).lhsIdx i κ 0).val = (i 0).val := by
  unfold DotDims.lhsIdx
  rw [dif_neg (show ¬(0 : Fin S5000x128.rank) ∈ (D).lhsBatch by decide),
    dif_pos (show (0 : Fin S5000x128.rank) ∈ (D).lhsNonContracting by decide)]
  rfl
/-- The left operand's column is the contracted feature. -/
theorem lhs_col (i : S5000x128.Idx) (κ : (D).contr.Idx) : ((D).lhsIdx i κ 1).val = (κ ⟨0, by decide⟩).val :=
  (D).lhsIdx_val_of_single rfl i κ
/-- The right operand's row is the contracted feature. -/
theorem rhs_row (i : S5000x128.Idx) (κ : (D).contr.Idx) : ((D).rhsIdx i κ 0).val = (κ ⟨0, by decide⟩).val :=
  (D).rhsIdx_val_of_single rfl i κ
/-- The right operand's column is the output's column. -/
theorem rhs_col (i : S5000x128.Idx) (κ : (D).contr.Idx) : ((D).rhsIdx i κ 1).val = (i 1).val := by
  unfold DotDims.rhsIdx
  rw [dif_neg (show ¬(1 : Fin S128x128.rank) ∈ (D).rhsBatch by decide),
    dif_pos (show (1 : Fin S128x128.rank) ∈ (D).rhsNonContracting by decide)]
  rfl

/-- A tile's matrix product into the zero accumulator, at (p, q): the sum over the 128 contracted features. -/
theorem matmul_at {φ₁ φ₂ : FTy} (a : FVec Ideal S5000x128 φ₁) (b : FVec Ideal S128x128 φ₂) (p : Fin 5000) (q : Fin 128) :
    matmul D none a b (constant S5000x128 .f32 0x00000000#32) (ix2 p q) = ∑ k : Fin 128, a (ix2 p k) * b (ix2 k q) := by
  simp only [matmul]
  rw [Ideal.matmul_constant_zero_apply, ← Equiv.sum_comp (contrEquiv1 D 128 rfl rfl).symm]
  refine Finset.sum_congr rfl fun k _ => ?_
  have hk := contrEquiv1_symm_val D 128 rfl rfl k
  have el : (D).lhsIdx (ix2 p q) ((contrEquiv1 D 128 rfl rfl).symm k) = ix2 p k := funext fun a => Fin.ext (by
    match a with
    | ⟨0, _⟩ => exact lhs_row _ _
    | ⟨1, _⟩ => exact (lhs_col _ _).trans hk)
  have er : (D).rhsIdx (ix2 p q) ((contrEquiv1 D 128 rfl rfl).symm k) = ix2 k q := funext fun a => Fin.ext (by
    match a with
    | ⟨0, _⟩ => exact (rhs_row _ _).trans hk
    | ⟨1, _⟩ => exact rhs_col _ _)
  rw [el, er]

/-- The bias row repeated down the tile, at (p, q): the row's entry q. -/
theorem bias_at (b : FVec Ideal S1x128 .f32) (p : Fin 5000) (q : Fin 128) :
    broadcastTo S5000x128 b broadcasts_S1x128_S5000x128 (ix2 p q) = b (ix2 0 q) :=
  broadcastTo_apply b broadcasts_S1x128_S5000x128 (ix2 p q) (ix2 0 q) (fun a => match a with
    | ⟨0, _⟩ => by show (0 : Nat) = if (1 : Nat) = 1 then 0 else _; rw [if_pos rfl]
    | ⟨1, _⟩ => by show q.val = if (128 : Nat) = 1 then 0 else q.val; rw [if_neg (by decide)])

/-- The first graph-convolution body at (p, q). -/
theorem conv0_at (x a : Vec Ideal S5000x128 .f32) (r n : Vec Ideal S128x128 .f32) (b : Vec Ideal S1x128 .f32) (p : Fin 5000) (q : Fin 128) :
    k0_pay1 (F := Ideal) x a r n b (ix2 p q)
      = max ((∑ k : Fin 128, x (ix2 p k) * r (ix2 k q)) + (∑ k : Fin 128, a (ix2 p k) * n (ix2 k q)) + b (ix2 0 q))
          (Ideal.ofBits .f32 0x00000000#32) := by
  unfold k0_pay1
  simp only [shapeCast_self]
  simp only [maximumf_apply, addf_apply, broadcast_apply, matmul_at, bias_at, truncf_apply]
  rfl

/-- The second graph-convolution body at (p, q): the same entries. -/
theorem conv1_at (x a : Vec Ideal S5000x128 .f32) (r n : Vec Ideal S128x128 .f32) (b : Vec Ideal S1x128 .f32) (p : Fin 5000) (q : Fin 128) :
    k1_pay1 (F := Ideal) x a r n b (ix2 p q)
      = max ((∑ k : Fin 128, x (ix2 p k) * r (ix2 k q)) + (∑ k : Fin 128, a (ix2 p k) * n (ix2 k q)) + b (ix2 0 q))
          (Ideal.ofBits .f32 0x00000000#32) := by
  unfold k1_pay1
  simp only [shapeCast_self]
  simp only [maximumf_apply, addf_apply, broadcast_apply, matmul_at, bias_at, truncf_apply]
  rfl

/-- The head's body at (p, q): a clamped linear layer feeding a linear layer. -/
theorem head_at (x : Vec Ideal S5000x128 .f32) (w₁ : Vec Ideal S128x128 .f32) (b₁ : Vec Ideal S1x128 .f32)
    (w₂ : Vec Ideal S128x128 .f32) (b₂ : Vec Ideal S1x128 .f32) (p : Fin 5000) (q : Fin 128) :
    k2_pay1 (F := Ideal) x w₁ b₁ w₂ b₂ (ix2 p q)
      = (∑ k : Fin 128, max ((∑ j : Fin 128, x (ix2 p j) * w₁ (ix2 j k)) + b₁ (ix2 0 k)) (Ideal.ofBits .f32 0x00000000#32) * w₂ (ix2 k q))
          + b₂ (ix2 0 q) := by
  unfold k2_pay1
  simp only [shapeCast_self]
  simp only [maximumf_apply, addf_apply, broadcast_apply, matmul_at, bias_at, truncf_apply]
  rfl

end Cert.KernelIdeal.Pay

end
-- ==== Proof.KReg.lean ====
/-
  Each pipelined region's output array, as one function of the arrays the region is entered with.

  A region walks ten grid points; at point t it loads rows 5000·t … 5000·t + 4999 of its two node arrays and the whole
  weight and bias arrays, runs the body on them, and writes the result back as rows 5000·t … of its output array. A node's
  row of a layer depends only on that node's rows of the inputs, so the tile the body leaves at point t IS tile t of the
  layer applied to the whole arrays; the ten tiles cover the 50000 rows; hence the output array ends holding the layer
  of the entry arrays. This is stated for ANY entry contents `V`, since each region is entered with what the previous
  segments left.
-/
import proofs.«165503_j75273596830207_1_alg».proof.Proof.Gen.KernelIdeal.Frame
import proofs.«165503_j75273596830207_1_alg».proof.Proof.Spec
import proofs.«165503_j75273596830207_1_alg».proof.Proof.KPay

set_option maxRecDepth 16384

noncomputable section

namespace Cert.KernelIdeal.Reg

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- Row p of tile T as a row of the whole array: 5000·T + p (T < 10 at every use; the remainder keeps the definition total). -/
def tileRow (T : Nat) (p : Fin 5000) : Fin 50000 := ⟨(T * 5000 + p.val) % 50000, Nat.mod_lt _ (by decide)⟩

theorem hz : (![0, 0] : Fin 2 → Nat) = fun _ => 0 := funext fun a => by fin_cases a <;> rfl

variable (V : (c : Dev nD) → (b : Ref sig .tc) → Buf (Elt Ideal) ((c : Thread nD τ).loc b))

/-! ## Region 0 -/

/-- Where each window's tile sits at grid point `t`: the node tiles (two inputs and the output) at tile row `t`, the
    weight and bias windows at the origin. Decided over the ten grid points. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of window 0's tile at point `t` is row 5000·t + p of its array. -/
theorem emb0_0 (t : Fin cfg0.N) (p : Fin 5000) (k : Fin 128) :
    ((cfg0.win 0).blk t).view.emb (ix2 p k) = ix2 (tileRow t.val p) k := by
  obtain ⟨e0a, e0b, e1a, e1b, e2a, e2b, e3a, e3b, e4a, e4b, e5a, e5b⟩ := idx0 t
  funext a; apply Fin.ext
  match a with
  | ⟨0, _⟩ =>
    show win0_0.index t (0 : Fin 2) * 5000 + 1 * p.val = (t.val * 5000 + p.val) % 50000
    have hN : grid0.N = 10 := N_0
    have ht : t.val < grid0.N := t.isLt
    have hp : p.val < 5000 := p.isLt
    omega
  | ⟨1, _⟩ => show win0_0.index t (1 : Fin 2) * 128 + 1 * k.val = k.val; omega

/-- Row p of window 1's tile at point `t` is row 5000·t + p of its array. -/
theorem emb0_1 (t : Fin cfg0.N) (p : Fin 5000) (k : Fin 128) :
    ((cfg0.win 1).blk t).view.emb (ix2 p k) = ix2 (tileRow t.val p) k := by
  obtain ⟨e0a, e0b, e1a, e1b, e2a, e2b, e3a, e3b, e4a, e4b, e5a, e5b⟩ := idx0 t
  funext a; apply Fin.ext
  match a with
  | ⟨0, _⟩ =>
    show win0_1.index t (0 : Fin 2) * 5000 + 1 * p.val = (t.val * 5000 + p.val) % 50000
    have hN : grid0.N = 10 := N_0
    have ht : t.val < grid0.N := t.isLt
    have hp : p.val < 5000 := p.isLt
    omega
  | ⟨1, _⟩ => show win0_1.index t (1 : Fin 2) * 128 + 1 * k.val = k.val; omega

/-- Window 2's tile is its whole array at every point. -/
theorem emb0_2 (t : Fin cfg0.N) (k : Fin 128) (q : Fin 128) :
    ((cfg0.win 2).blk t).view.emb (ix2 k q) = ix2 k q := by
  obtain ⟨e0a, e0b, e1a, e1b, e2a, e2b, e3a, e3b, e4a, e4b, e5a, e5b⟩ := idx0 t
  funext a; apply Fin.ext
  match a with
  | ⟨0, _⟩ => show win0_2.index t (0 : Fin 2) * 128 + 1 * k.val = k.val; omega
  | ⟨1, _⟩ => show win0_2.index t (1 : Fin 2) * 128 + 1 * q.val = q.val; omega

/-- Window 3's tile is its whole array at every point. -/
theorem emb0_3 (t : Fin cfg0.N) (k : Fin 128) (q : Fin 128) :
    ((cfg0.win 3).blk t).view.emb (ix2 k q) = ix2 k q := by
  obtain ⟨e0a, e0b, e1a, e1b, e2a, e2b, e3a, e3b, e4a, e4b, e5a, e5b⟩ := idx0 t
  funext a; apply Fin.ext
  match a with
  | ⟨0, _⟩ => show win0_3.index t (0 : Fin 2) * 128 + 1 * k.val = k.val; omega
  | ⟨1, _⟩ => show win0_3.index t (1 : Fin 2) * 128 + 1 * q.val = q.val; omega

/-- Window 4's tile is its whole array at every point. -/
theorem emb0_4 (t : Fin cfg0.N) (k : Fin 1) (q : Fin 128) :
    ((cfg0.win 4).blk t).view.emb (ix2 k q) = ix2 k q := by
  obtain ⟨e0a, e0b, e1a, e1b, e2a, e2b, e3a, e3b, e4a, e4b, e5a, e5b⟩ := idx0 t
  funext a; apply Fin.ext
  match a with
  | ⟨0, _⟩ => show win0_4.index t (0 : Fin 2) * 1 + 1 * k.val = k.val; omega
  | ⟨1, _⟩ => show win0_4.index t (1 : Fin 2) * 128 + 1 * q.val = q.val; omega

/-- Row p of window 5's tile at point `t` is row 5000·t + p of its array. -/
theorem emb0_5 (t : Fin cfg0.N) (p : Fin 5000) (k : Fin 128) :
    ((cfg0.win 5).blk t).view.emb (ix2 p k) = ix2 (tileRow t.val p) k := by
  obtain ⟨e0a, e0b, e1a, e1b, e2a, e2b, e3a, e3b, e4a, e4b, e5a, e5b⟩ := idx0 t
  funext a; apply Fin.ext
  match a with
  | ⟨0, _⟩ =>
    show win0_5.index t (0 : Fin 2) * 5000 + 1 * p.val = (t.val * 5000 + p.val) % 50000
    have hN : grid0.N = 10 := N_0
    have ht : t.val < grid0.N := t.isLt
    have hp : p.val < 5000 := p.isLt
    omega
  | ⟨1, _⟩ => show win0_5.index t (1 : Fin 2) * 128 + 1 * k.val = k.val; omega

/-- The tile of window 0 that the body loads at point `t`, read at (p, k). -/
theorem blk0_0 (c : Dev nD) (t : Fin cfg0.N) (p : Fin 5000) (k : Fin 128) :
    iblk0 V c 0 t (ix2 p k) = V c main_arg0 (ix2 (tileRow t.val p) k) :=
  congrArg (V c main_arg0) (emb0_0 t p k)

/-- The tile of window 1 that the body loads at point `t`, read at (p, k). -/
theorem blk0_1 (c : Dev nD) (t : Fin cfg0.N) (p : Fin 5000) (k : Fin 128) :
    iblk0 V c 1 t (ix2 p k) = V c main_v13 (ix2 (tileRow t.val p) k) :=
  congrArg (V c main_v13) (emb0_1 t p k)

/-- The tile of window 2 that the body loads at point `t`, read at (k, q): the array itself. -/
theorem blk0_2 (c : Dev nD) (t : Fin cfg0.N) (k : Fin 128) (q : Fin 128) :
    iblk0 V c 2 t (ix2 k q) = V c main_v14 (ix2 k q) :=
  congrArg (V c main_v14) (emb0_2 t k q)

/-- The tile of window 3 that the body loads at point `t`, read at (k, q): the array itself. -/
theorem blk0_3 (c : Dev nD) (t : Fin cfg0.N) (k : Fin 128) (q : Fin 128) :
    iblk0 V c 3 t (ix2 k q) = V c main_v15 (ix2 k q) :=
  congrArg (V c main_v15) (emb0_3 t k q)

/-- The tile of window 4 that the body loads at point `t`, read at (k, q): the array itself. -/
theorem blk0_4 (c : Dev nD) (t : Fin cfg0.N) (k : Fin 1) (q : Fin 128) :
    iblk0 V c 4 t (ix2 k q) = V c main_v16 (ix2 k q) :=
  congrArg (V c main_v16) (emb0_4 t k q)

/-- What the body leaves at (p, q) of its output tile at point `t` is the layer at node 5000·t + p, feature q, of the
    arrays the region was entered with. -/
theorem tile0 (c : Dev nD) (t : Fin cfg0.N) (p : Fin 5000) (q : Fin 128) :
    k0_pay1 (F := Ideal) (iblk0 V c 0 t) (iblk0 V c 1 t) (iblk0 V c 2 t) (iblk0 V c 3 t) (iblk0 V c 4 t) (ix2 p q)
      = Cert.Spec.convAt (V c main_arg0) (V c main_v13) (V c main_v14) (V c main_v15) (V c main_v16) (tileRow t.val p) q := by
  rw [Cert.KernelIdeal.Pay.conv0_at]
  unfold Cert.Spec.convAt Cert.Spec.prod
  simp only [blk0_0 V c t, blk0_1 V c t, blk0_2 V c t, blk0_3 V c t, blk0_4 V c t]

/-- What point `t` writes back is tile `t` of the layer of the arrays the region was entered with. -/
theorem flushed0 (c : Dev nD) (t : Fin cfg0.N) :
    (dat0 V c).flushed 5 t = ((cfg0.win 5).blk t).view.read (Elt Ideal) (Cert.Spec.conv (V c main_arg0) (V c main_v13) (V c main_v14) (V c main_v15) (V c main_v16)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  refine funext fun (j : S5000x128.Idx) => ?_
  obtain ⟨p, q, rfl⟩ : ∃ (p : Fin 5000) (q : Fin 128), j = ix2 p q := ⟨j 0, j 1, eq_ix2 j⟩
  refine (tile0 V c t p q).trans ?_
  show _ = Cert.Spec.conv (V c main_arg0) (V c main_v13) (V c main_v14) (V c main_v15) (V c main_v16) (((cfg0.win 5).blk t).view.emb (ix2 p q))
  rw [emb0_5 t p q]
  rfl

/-- An index of the output array lies in point `t`'s tile iff each coordinate lies in the tile's range. -/
theorem mem_tile0 (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v17).slice (win0_5.rect t)).set ↔ _
  rw [View.set_slice_whole, Rect.mem_set_unit]
  exact Iff.rfl

/-- Every node row lies in the tile of the point numbered by the row's quotient by 5000: the ten tiles cover the array. -/
theorem cover0 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : grid0.N = 10 := N_0
  have hlt : (i 0).val / 5000 < grid0.N := by omega
  obtain ⟨e0a, e0b, e1a, e1b, e2a, e2b, e3a, e3b, e4a, e4b, e5a, e5b⟩ := idx0 (⟨(i 0).val / 5000, hlt⟩ : Fin cfg0.N)
  refine ⟨⟨(i 0).val / 5000, hlt⟩, flush0_5 _, ?_⟩
  rw [mem_tile0]
  intro a
  match a with
  | ⟨0, _⟩ =>
    show win0_5.index ⟨(i 0).val / 5000, hlt⟩ (0 : Fin 2) * 5000 ≤ (i 0).val
      ∧ (i 0).val < win0_5.index ⟨(i 0).val / 5000, hlt⟩ (0 : Fin 2) * 5000 + 5000
    have e : win0_5.index ⟨(i 0).val / 5000, hlt⟩ (0 : Fin 2) = (i 0).val / 5000 := e5a
    omega
  | ⟨1, _⟩ =>
    show win0_5.index ⟨(i 0).val / 5000, hlt⟩ (1 : Fin 2) * 128 ≤ (i 1).val
      ∧ (i 1).val < win0_5.index ⟨(i 0).val / 5000, hlt⟩ (1 : Fin 2) * 128 + 128
    omega

/-- THE REGION'S OUTPUT ARRAY after its ten points: the layer of the arrays the region was entered with. -/
theorem arr0 (c : Dev nD) :
    (dat0 V c).arrAt 5 cfg0.N = Cert.Spec.conv (V c main_arg0) (V c main_v13) (V c main_v14) (V c main_v15) (V c main_v16) :=
  (dat0 V c).arrAt_eq_of_cover 5 _ (fun t _ => flushed0 V c t) cover0

/-! ## Region 1 -/

/-- Where each window's tile sits at grid point `t`: the node tiles (two inputs and the output) at tile row `t`, the
    weight and bias windows at the origin. Decided over the ten grid points. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of window 0's tile at point `t` is row 5000·t + p of its array. -/
theorem emb1_0 (t : Fin cfg1.N) (p : Fin 5000) (k : Fin 128) :
    ((cfg1.win 0).blk t).view.emb (ix2 p k) = ix2 (tileRow t.val p) k := by
  obtain ⟨e0a, e0b, e1a, e1b, e2a, e2b, e3a, e3b, e4a, e4b, e5a, e5b⟩ := idx1 t
  funext a; apply Fin.ext
  match a with
  | ⟨0, _⟩ =>
    show win1_0.index t (0 : Fin 2) * 5000 + 1 * p.val = (t.val * 5000 + p.val) % 50000
    have hN : grid1.N = 10 := N_1
    have ht : t.val < grid1.N := t.isLt
    have hp : p.val < 5000 := p.isLt
    omega
  | ⟨1, _⟩ => show win1_0.index t (1 : Fin 2) * 128 + 1 * k.val = k.val; omega

/-- Row p of window 1's tile at point `t` is row 5000·t + p of its array. -/
theorem emb1_1 (t : Fin cfg1.N) (p : Fin 5000) (k : Fin 128) :
    ((cfg1.win 1).blk t).view.emb (ix2 p k) = ix2 (tileRow t.val p) k := by
  obtain ⟨e0a, e0b, e1a, e1b, e2a, e2b, e3a, e3b, e4a, e4b, e5a, e5b⟩ := idx1 t
  funext a; apply Fin.ext
  match a with
  | ⟨0, _⟩ =>
    show win1_1.index t (0 : Fin 2) * 5000 + 1 * p.val = (t.val * 5000 + p.val) % 50000
    have hN : grid1.N = 10 := N_1
    have ht : t.val < grid1.N := t.isLt
    have hp : p.val < 5000 := p.isLt
    omega
  | ⟨1, _⟩ => show win1_1.index t (1 : Fin 2) * 128 + 1 * k.val = k.val; omega

/-- Window 2's tile is its whole array at every point. -/
theorem emb1_2 (t : Fin cfg1.N) (k : Fin 128) (q : Fin 128) :
    ((cfg1.win 2).blk t).view.emb (ix2 k q) = ix2 k q := by
  obtain ⟨e0a, e0b, e1a, e1b, e2a, e2b, e3a, e3b, e4a, e4b, e5a, e5b⟩ := idx1 t
  funext a; apply Fin.ext
  match a with
  | ⟨0, _⟩ => show win1_2.index t (0 : Fin 2) * 128 + 1 * k.val = k.val; omega
  | ⟨1, _⟩ => show win1_2.index t (1 : Fin 2) * 128 + 1 * q.val = q.val; omega

/-- Window 3's tile is its whole array at every point. -/
theorem emb1_3 (t : Fin cfg1.N) (k : Fin 128) (q : Fin 128) :
    ((cfg1.win 3).blk t).view.emb (ix2 k q) = ix2 k q := by
  obtain ⟨e0a, e0b, e1a, e1b, e2a, e2b, e3a, e3b, e4a, e4b, e5a, e5b⟩ := idx1 t
  funext a; apply Fin.ext
  match a with
  | ⟨0, _⟩ => show win1_3.index t (0 : Fin 2) * 128 + 1 * k.val = k.val; omega
  | ⟨1, _⟩ => show win1_3.index t (1 : Fin 2) * 128 + 1 * q.val = q.val; omega

/-- Window 4's tile is its whole array at every point. -/
theorem emb1_4 (t : Fin cfg1.N) (k : Fin 1) (q : Fin 128) :
    ((cfg1.win 4).blk t).view.emb (ix2 k q) = ix2 k q := by
  obtain ⟨e0a, e0b, e1a, e1b, e2a, e2b, e3a, e3b, e4a, e4b, e5a, e5b⟩ := idx1 t
  funext a; apply Fin.ext
  match a with
  | ⟨0, _⟩ => show win1_4.index t (0 : Fin 2) * 1 + 1 * k.val = k.val; omega
  | ⟨1, _⟩ => show win1_4.index t (1 : Fin 2) * 128 + 1 * q.val = q.val; omega

/-- Row p of window 5's tile at point `t` is row 5000·t + p of its array. -/
theorem emb1_5 (t : Fin cfg1.N) (p : Fin 5000) (k : Fin 128) :
    ((cfg1.win 5).blk t).view.emb (ix2 p k) = ix2 (tileRow t.val p) k := by
  obtain ⟨e0a, e0b, e1a, e1b, e2a, e2b, e3a, e3b, e4a, e4b, e5a, e5b⟩ := idx1 t
  funext a; apply Fin.ext
  match a with
  | ⟨0, _⟩ =>
    show win1_5.index t (0 : Fin 2) * 5000 + 1 * p.val = (t.val * 5000 + p.val) % 50000
    have hN : grid1.N = 10 := N_1
    have ht : t.val < grid1.N := t.isLt
    have hp : p.val < 5000 := p.isLt
    omega
  | ⟨1, _⟩ => show win1_5.index t (1 : Fin 2) * 128 + 1 * k.val = k.val; omega

/-- The tile of window 0 that the body loads at point `t`, read at (p, k). -/
theorem blk1_0 (c : Dev nD) (t : Fin cfg1.N) (p : Fin 5000) (k : Fin 128) :
    iblk1 V c 0 t (ix2 p k) = V c main_v17 (ix2 (tileRow t.val p) k) :=
  congrArg (V c main_v17) (emb1_0 t p k)

/-- The tile of window 1 that the body loads at point `t`, read at (p, k). -/
theorem blk1_1 (c : Dev nD) (t : Fin cfg1.N) (p : Fin 5000) (k : Fin 128) :
    iblk1 V c 1 t (ix2 p k) = V c main_v27 (ix2 (tileRow t.val p) k) :=
  congrArg (V c main_v27) (emb1_1 t p k)

/-- The tile of window 2 that the body loads at point `t`, read at (k, q): the array itself. -/
theorem blk1_2 (c : Dev nD) (t : Fin cfg1.N) (k : Fin 128) (q : Fin 128) :
    iblk1 V c 2 t (ix2 k q) = V c main_v28 (ix2 k q) :=
  congrArg (V c main_v28) (emb1_2 t k q)

/-- The tile of window 3 that the body loads at point `t`, read at (k, q): the array itself. -/
theorem blk1_3 (c : Dev nD) (t : Fin cfg1.N) (k : Fin 128) (q : Fin 128) :
    iblk1 V c 3 t (ix2 k q) = V c main_v29 (ix2 k q) :=
  congrArg (V c main_v29) (emb1_3 t k q)

/-- The tile of window 4 that the body loads at point `t`, read at (k, q): the array itself. -/
theorem blk1_4 (c : Dev nD) (t : Fin cfg1.N) (k : Fin 1) (q : Fin 128) :
    iblk1 V c 4 t (ix2 k q) = V c main_v30 (ix2 k q) :=
  congrArg (V c main_v30) (emb1_4 t k q)

/-- What the body leaves at (p, q) of its output tile at point `t` is the layer at node 5000·t + p, feature q, of the
    arrays the region was entered with. -/
theorem tile1 (c : Dev nD) (t : Fin cfg1.N) (p : Fin 5000) (q : Fin 128) :
    k1_pay1 (F := Ideal) (iblk1 V c 0 t) (iblk1 V c 1 t) (iblk1 V c 2 t) (iblk1 V c 3 t) (iblk1 V c 4 t) (ix2 p q)
      = Cert.Spec.convAt (V c main_v17) (V c main_v27) (V c main_v28) (V c main_v29) (V c main_v30) (tileRow t.val p) q := by
  rw [Cert.KernelIdeal.Pay.conv1_at]
  unfold Cert.Spec.convAt Cert.Spec.prod
  simp only [blk1_0 V c t, blk1_1 V c t, blk1_2 V c t, blk1_3 V c t, blk1_4 V c t]

/-- What point `t` writes back is tile `t` of the layer of the arrays the region was entered with. -/
theorem flushed1 (c : Dev nD) (t : Fin cfg1.N) :
    (dat1 V c).flushed 5 t = ((cfg1.win 5).blk t).view.read (Elt Ideal) (Cert.Spec.conv (V c main_v17) (V c main_v27) (V c main_v28) (V c main_v29) (V c main_v30)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  refine funext fun (j : S5000x128.Idx) => ?_
  obtain ⟨p, q, rfl⟩ : ∃ (p : Fin 5000) (q : Fin 128), j = ix2 p q := ⟨j 0, j 1, eq_ix2 j⟩
  refine (tile1 V c t p q).trans ?_
  show _ = Cert.Spec.conv (V c main_v17) (V c main_v27) (V c main_v28) (V c main_v29) (V c main_v30) (((cfg1.win 5).blk t).view.emb (ix2 p q))
  rw [emb1_5 t p q]
  rfl

/-- An index of the output array lies in point `t`'s tile iff each coordinate lies in the tile's range. -/
theorem mem_tile1 (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v31).slice (win1_5.rect t)).set ↔ _
  rw [View.set_slice_whole, Rect.mem_set_unit]
  exact Iff.rfl

/-- Every node row lies in the tile of the point numbered by the row's quotient by 5000: the ten tiles cover the array. -/
theorem cover1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : grid1.N = 10 := N_1
  have hlt : (i 0).val / 5000 < grid1.N := by omega
  obtain ⟨e0a, e0b, e1a, e1b, e2a, e2b, e3a, e3b, e4a, e4b, e5a, e5b⟩ := idx1 (⟨(i 0).val / 5000, hlt⟩ : Fin cfg1.N)
  refine ⟨⟨(i 0).val / 5000, hlt⟩, flush1_5 _, ?_⟩
  rw [mem_tile1]
  intro a
  match a with
  | ⟨0, _⟩ =>
    show win1_5.index ⟨(i 0).val / 5000, hlt⟩ (0 : Fin 2) * 5000 ≤ (i 0).val
      ∧ (i 0).val < win1_5.index ⟨(i 0).val / 5000, hlt⟩ (0 : Fin 2) * 5000 + 5000
    have e : win1_5.index ⟨(i 0).val / 5000, hlt⟩ (0 : Fin 2) = (i 0).val / 5000 := e5a
    omega
  | ⟨1, _⟩ =>
    show win1_5.index ⟨(i 0).val / 5000, hlt⟩ (1 : Fin 2) * 128 ≤ (i 1).val
      ∧ (i 1).val < win1_5.index ⟨(i 0).val / 5000, hlt⟩ (1 : Fin 2) * 128 + 128
    omega

/-- THE REGION'S OUTPUT ARRAY after its ten points: the layer of the arrays the region was entered with. -/
theorem arr1 (c : Dev nD) :
    (dat1 V c).arrAt 5 cfg1.N = Cert.Spec.conv (V c main_v17) (V c main_v27) (V c main_v28) (V c main_v29) (V c main_v30) :=
  (dat1 V c).arrAt_eq_of_cover 5 _ (fun t _ => flushed1 V c t) cover1

/-! ## Region 2 -/

/-- Where each window's tile sits at grid point `t`: the node tiles (two inputs and the output) at tile row `t`, the
    weight and bias windows at the origin. Decided over the ten grid points. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row p of window 0's tile at point `t` is row 5000·t + p of its array. -/
theorem emb2_0 (t : Fin cfg2.N) (p : Fin 5000) (k : Fin 128) :
    ((cfg2.win 0).blk t).view.emb (ix2 p k) = ix2 (tileRow t.val p) k := by
  obtain ⟨e0a, e0b, e1a, e1b, e2a, e2b, e3a, e3b, e4a, e4b, e5a, e5b⟩ := idx2 t
  funext a; apply Fin.ext
  match a with
  | ⟨0, _⟩ =>
    show win2_0.index t (0 : Fin 2) * 5000 + 1 * p.val = (t.val * 5000 + p.val) % 50000
    have hN : grid2.N = 10 := N_2
    have ht : t.val < grid2.N := t.isLt
    have hp : p.val < 5000 := p.isLt
    omega
  | ⟨1, _⟩ => show win2_0.index t (1 : Fin 2) * 128 + 1 * k.val = k.val; omega

/-- Window 1's tile is its whole array at every point. -/
theorem emb2_1 (t : Fin cfg2.N) (k : Fin 128) (q : Fin 128) :
    ((cfg2.win 1).blk t).view.emb (ix2 k q) = ix2 k q := by
  obtain ⟨e0a, e0b, e1a, e1b, e2a, e2b, e3a, e3b, e4a, e4b, e5a, e5b⟩ := idx2 t
  funext a; apply Fin.ext
  match a with
  | ⟨0, _⟩ => show win2_1.index t (0 : Fin 2) * 128 + 1 * k.val = k.val; omega
  | ⟨1, _⟩ => show win2_1.index t (1 : Fin 2) * 128 + 1 * q.val = q.val; omega

/-- Window 2's tile is its whole array at every point. -/
theorem emb2_2 (t : Fin cfg2.N) (k : Fin 1) (q : Fin 128) :
    ((cfg2.win 2).blk t).view.emb (ix2 k q) = ix2 k q := by
  obtain ⟨e0a, e0b, e1a, e1b, e2a, e2b, e3a, e3b, e4a, e4b, e5a, e5b⟩ := idx2 t
  funext a; apply Fin.ext
  match a with
  | ⟨0, _⟩ => show win2_2.index t (0 : Fin 2) * 1 + 1 * k.val = k.val; omega
  | ⟨1, _⟩ => show win2_2.index t (1 : Fin 2) * 128 + 1 * q.val = q.val; omega

/-- Window 3's tile is its whole array at every point. -/
theorem emb2_3 (t : Fin cfg2.N) (k : Fin 128) (q : Fin 128) :
    ((cfg2.win 3).blk t).view.emb (ix2 k q) = ix2 k q := by
  obtain ⟨e0a, e0b, e1a, e1b, e2a, e2b, e3a, e3b, e4a, e4b, e5a, e5b⟩ := idx2 t
  funext a; apply Fin.ext
  match a with
  | ⟨0, _⟩ => show win2_3.index t (0 : Fin 2) * 128 + 1 * k.val = k.val; omega
  | ⟨1, _⟩ => show win2_3.index t (1 : Fin 2) * 128 + 1 * q.val = q.val; omega

/-- Window 4's tile is its whole array at every point. -/
theorem emb2_4 (t : Fin cfg2.N) (k : Fin 1) (q : Fin 128) :
    ((cfg2.win 4).blk t).view.emb (ix2 k q) = ix2 k q := by
  obtain ⟨e0a, e0b, e1a, e1b, e2a, e2b, e3a, e3b, e4a, e4b, e5a, e5b⟩ := idx2 t
  funext a; apply Fin.ext
  match a with
  | ⟨0, _⟩ => show win2_4.index t (0 : Fin 2) * 1 + 1 * k.val = k.val; omega
  | ⟨1, _⟩ => show win2_4.index t (1 : Fin 2) * 128 + 1 * q.val = q.val; omega

/-- Row p of window 5's tile at point `t` is row 5000·t + p of its array. -/
theorem emb2_5 (t : Fin cfg2.N) (p : Fin 5000) (k : Fin 128) :
    ((cfg2.win 5).blk t).view.emb (ix2 p k) = ix2 (tileRow t.val p) k := by
  obtain ⟨e0a, e0b, e1a, e1b, e2a, e2b, e3a, e3b, e4a, e4b, e5a, e5b⟩ := idx2 t
  funext a; apply Fin.ext
  match a with
  | ⟨0, _⟩ =>
    show win2_5.index t (0 : Fin 2) * 5000 + 1 * p.val = (t.val * 5000 + p.val) % 50000
    have hN : grid2.N = 10 := N_2
    have ht : t.val < grid2.N := t.isLt
    have hp : p.val < 5000 := p.isLt
    omega
  | ⟨1, _⟩ => show win2_5.index t (1 : Fin 2) * 128 + 1 * k.val = k.val; omega

/-- The tile of window 0 that the body loads at point `t`, read at (p, k). -/
theorem blk2_0 (c : Dev nD) (t : Fin cfg2.N) (p : Fin 5000) (k : Fin 128) :
    iblk2 V c 0 t (ix2 p k) = V c main_v31 (ix2 (tileRow t.val p) k) :=
  congrArg (V c main_v31) (emb2_0 t p k)

/-- The tile of window 1 that the body loads at point `t`, read at (k, q): the array itself. -/
theorem blk2_1 (c : Dev nD) (t : Fin cfg2.N) (k : Fin 128) (q : Fin 128) :
    iblk2 V c 1 t (ix2 k q) = V c main_v34 (ix2 k q) :=
  congrArg (V c main_v34) (emb2_1 t k q)

/-- The tile of window 2 that the body loads at point `t`, read at (k, q): the array itself. -/
theorem blk2_2 (c : Dev nD) (t : Fin cfg2.N) (k : Fin 1) (q : Fin 128) :
    iblk2 V c 2 t (ix2 k q) = V c main_v36 (ix2 k q) :=
  congrArg (V c main_v36) (emb2_2 t k q)

/-- The tile of window 3 that the body loads at point `t`, read at (k, q): the array itself. -/
theorem blk2_3 (c : Dev nD) (t : Fin cfg2.N) (k : Fin 128) (q : Fin 128) :
    iblk2 V c 3 t (ix2 k q) = V c main_v35 (ix2 k q) :=
  congrArg (V c main_v35) (emb2_3 t k q)

/-- The tile of window 4 that the body loads at point `t`, read at (k, q): the array itself. -/
theorem blk2_4 (c : Dev nD) (t : Fin cfg2.N) (k : Fin 1) (q : Fin 128) :
    iblk2 V c 4 t (ix2 k q) = V c main_v37 (ix2 k q) :=
  congrArg (V c main_v37) (emb2_4 t k q)

/-- What the body leaves at (p, q) of its output tile at point `t` is the layer at node 5000·t + p, feature q, of the
    arrays the region was entered with. -/
theorem tile2 (c : Dev nD) (t : Fin cfg2.N) (p : Fin 5000) (q : Fin 128) :
    k2_pay1 (F := Ideal) (iblk2 V c 0 t) (iblk2 V c 1 t) (iblk2 V c 2 t) (iblk2 V c 3 t) (iblk2 V c 4 t) (ix2 p q)
      = Cert.Spec.headAt (V c main_v31) (V c main_v34) (V c main_v36) (V c main_v35) (V c main_v37) (tileRow t.val p) q := by
  rw [Cert.KernelIdeal.Pay.head_at]
  unfold Cert.Spec.headAt Cert.Spec.prod
  simp only [Cert.Spec.clamped_ix2]
  unfold Cert.Spec.clampedAt Cert.Spec.prod
  simp only [blk2_0 V c t, blk2_1 V c t, blk2_2 V c t, blk2_3 V c t, blk2_4 V c t]
  try rfl

/-- What point `t` writes back is tile `t` of the layer of the arrays the region was entered with. -/
theorem flushed2 (c : Dev nD) (t : Fin cfg2.N) :
    (dat2 V c).flushed 5 t = ((cfg2.win 5).blk t).view.read (Elt Ideal) (Cert.Spec.head (V c main_v31) (V c main_v34) (V c main_v36) (V c main_v35) (V c main_v37)) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S1x128) hz]
  refine funext fun (j : S5000x128.Idx) => ?_
  obtain ⟨p, q, rfl⟩ : ∃ (p : Fin 5000) (q : Fin 128), j = ix2 p q := ⟨j 0, j 1, eq_ix2 j⟩
  refine (tile2 V c t p q).trans ?_
  show _ = Cert.Spec.head (V c main_v31) (V c main_v34) (V c main_v36) (V c main_v35) (V c main_v37) (((cfg2.win 5).blk t).view.emb (ix2 p q))
  rw [emb2_5 t p q]
  rfl

/-- An index of the output array lies in point `t`'s tile iff each coordinate lies in the tile's range. -/
theorem mem_tile2 (t : Fin cfg2.N) (i : S50000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v38).slice (win2_5.rect t)).set ↔ _
  rw [View.set_slice_whole, Rect.mem_set_unit]
  exact Iff.rfl

/-- Every node row lies in the tile of the point numbered by the row's quotient by 5000: the ten tiles cover the array. -/
theorem cover2 (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : grid2.N = 10 := N_2
  have hlt : (i 0).val / 5000 < grid2.N := by omega
  obtain ⟨e0a, e0b, e1a, e1b, e2a, e2b, e3a, e3b, e4a, e4b, e5a, e5b⟩ := idx2 (⟨(i 0).val / 5000, hlt⟩ : Fin cfg2.N)
  refine ⟨⟨(i 0).val / 5000, hlt⟩, flush2_5 _, ?_⟩
  rw [mem_tile2]
  intro a
  match a with
  | ⟨0, _⟩ =>
    show win2_5.index ⟨(i 0).val / 5000, hlt⟩ (0 : Fin 2) * 5000 ≤ (i 0).val
      ∧ (i 0).val < win2_5.index ⟨(i 0).val / 5000, hlt⟩ (0 : Fin 2) * 5000 + 5000
    have e : win2_5.index ⟨(i 0).val / 5000, hlt⟩ (0 : Fin 2) = (i 0).val / 5000 := e5a
    omega
  | ⟨1, _⟩ =>
    show win2_5.index ⟨(i 0).val / 5000, hlt⟩ (1 : Fin 2) * 128 ≤ (i 1).val
      ∧ (i 1).val < win2_5.index ⟨(i 0).val / 5000, hlt⟩ (1 : Fin 2) * 128 + 128
    omega

/-- THE REGION'S OUTPUT ARRAY after its ten points: the layer of the arrays the region was entered with. -/
theorem arr2 (c : Dev nD) :
    (dat2 V c).arrAt 5 cfg2.N = Cert.Spec.head (V c main_v31) (V c main_v34) (V c main_v36) (V c main_v35) (V c main_v37) :=
  (dat2 V c).arrAt_eq_of_cover 5 _ (fun t _ => flushed2 V c t) cover2

end Cert.KernelIdeal.Reg

end
-- ==== Proof.RefVal.lean ====
/-
  The reference program's stages are the same layers.

  The reference computes each layer on the whole 50000 × 128 array with host operations: two matrix products summed,
  the bias broadcast down the rows, a maximum with zero. Read at node p and feature q (the generated read-at-an-index
  lemmas), a stage is the layer's formula of its operand arrays AS THE PROGRAM BUILDS THEM — the transposed weights,
  the bias as a 1 × 128 row, the aggregated neighbour features — so the three stages are `conv`, `conv` and `clamped` of the
  specification, and the last stage, at (p, c) with c one of the ten classes, is the last linear layer's sum.
-/
import proofs.«165503_j75273596830207_1_alg».proof.Proof.Gen.ReferenceIdeal.Read
import proofs.«165503_j75273596830207_1_alg».proof.Proof.Spec

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

/-! ## The operand indices of the stages, at node p and feature q -/

theorem l15 (p : Fin 50000) (q k : Fin 128) : lidx_main_v15 (ix2 p q) k = ix2 p k :=
  funext fun a => match a with | ⟨0, _⟩ => rfl | ⟨1, _⟩ => rfl
theorem r15 (p : Fin 50000) (q k : Fin 128) : ridx_main_v15 (ix2 p q) k = ix2 k q :=
  funext fun a => match a with | ⟨0, _⟩ => rfl | ⟨1, _⟩ => rfl
theorem l17 (p : Fin 50000) (q k : Fin 128) : lidx_main_v17 (ix2 p q) k = ix2 p k :=
  funext fun a => match a with | ⟨0, _⟩ => rfl | ⟨1, _⟩ => rfl
theorem r17 (p : Fin 50000) (q k : Fin 128) : ridx_main_v17 (ix2 p q) k = ix2 k q :=
  funext fun a => match a with | ⟨0, _⟩ => rfl | ⟨1, _⟩ => rfl
theorem l34 (p : Fin 50000) (q k : Fin 128) : lidx_main_v34 (ix2 p q) k = ix2 p k :=
  funext fun a => match a with | ⟨0, _⟩ => rfl | ⟨1, _⟩ => rfl
theorem r34 (p : Fin 50000) (q k : Fin 128) : ridx_main_v34 (ix2 p q) k = ix2 k q :=
  funext fun a => match a with | ⟨0, _⟩ => rfl | ⟨1, _⟩ => rfl
theorem l36 (p : Fin 50000) (q k : Fin 128) : lidx_main_v36 (ix2 p q) k = ix2 p k :=
  funext fun a => match a with | ⟨0, _⟩ => rfl | ⟨1, _⟩ => rfl
theorem r36 (p : Fin 50000) (q k : Fin 128) : ridx_main_v36 (ix2 p q) k = ix2 k q :=
  funext fun a => match a with | ⟨0, _⟩ => rfl | ⟨1, _⟩ => rfl
theorem l43 (p : Fin 50000) (q k : Fin 128) : lidx_main_v43 (ix2 p q) k = ix2 p k :=
  funext fun a => match a with | ⟨0, _⟩ => rfl | ⟨1, _⟩ => rfl
theorem r43 (p : Fin 50000) (q k : Fin 128) : ridx_main_v43 (ix2 p q) k = ix2 k q :=
  funext fun a => match a with | ⟨0, _⟩ => rfl | ⟨1, _⟩ => rfl
theorem i20 (p : Fin 50000) (q : Fin 128) : idx_main_v20 (ix2 p q) = ix2 0 q :=
  funext fun a => match a with | ⟨0, _⟩ => rfl | ⟨1, _⟩ => rfl
theorem i39 (p : Fin 50000) (q : Fin 128) : idx_main_v39 (ix2 p q) = ix2 0 q :=
  funext fun a => match a with | ⟨0, _⟩ => rfl | ⟨1, _⟩ => rfl
theorem i45 (p : Fin 50000) (q : Fin 128) : idx_main_v45 (ix2 p q) = ix2 0 q :=
  funext fun a => match a with | ⟨0, _⟩ => rfl | ⟨1, _⟩ => rfl
theorem l49 (p : Fin 50000) (c : Fin 10) (k : Fin 128) : lidx_main_v49 (ix2 p c) k = ix2 p k :=
  funext fun a => match a with | ⟨0, _⟩ => rfl | ⟨1, _⟩ => rfl
theorem r49 (p : Fin 50000) (c : Fin 10) (k : Fin 128) : ridx_main_v49 (ix2 p c) k = ix2 k c :=
  funext fun a => match a with | ⟨0, _⟩ => rfl | ⟨1, _⟩ => rfl
theorem i51 (p : Fin 50000) (c : Fin 10) : idx_main_v51 (ix2 p c) = ix2 0 c :=
  funext fun a => match a with | ⟨0, _⟩ => rfl | ⟨1, _⟩ => rfl

variable (x0 : (⟨S50000x128, .f32⟩ : BufTy).Contents (Elt Ideal)) (x1 : (⟨S2x800000, .i32⟩ : BufTy).Contents (Elt Ideal))
  (x2 x3 : (⟨S128x128, .f32⟩ : BufTy).Contents (Elt Ideal)) (x4 : (⟨S128, .f32⟩ : BufTy).Contents (Elt Ideal))
  (x5 x6 : (⟨S128x128, .f32⟩ : BufTy).Contents (Elt Ideal)) (x7 : (⟨S128, .f32⟩ : BufTy).Contents (Elt Ideal))
  (x8 : (⟨S128x128, .f32⟩ : BufTy).Contents (Elt Ideal)) (x9 : (⟨S128, .f32⟩ : BufTy).Contents (Elt Ideal))
  (x10 : (⟨S10x128, .f32⟩ : BufTy).Contents (Elt Ideal)) (x11 : (⟨S10, .f32⟩ : BufTy).Contents (Elt Ideal))

/-! ## The three layers -/

/-- The first layer's stage: the graph convolution of the node features and their aggregate. -/
theorem layer1 : val_main_v22 (F := Ideal) x0 x1 x2 x3 x4
    = Cert.Spec.conv x0 (val_main_v13 (F := Ideal) x0 x1) (val_main_v14 (F := Ideal) x3) (val_main_v16 (F := Ideal) x2)
        (val_main_v19 (F := Ideal) x4) := by
  funext i
  obtain ⟨p, q, rfl⟩ : ∃ (p : Fin 50000) (q : Fin 128), i = ix2 p q := ⟨i 0, i 1, eq_ix2 i⟩
  rw [Cert.Spec.conv_ix2, val_main_v22_apply, val_main_v21_apply, val_main_v18_apply, val_main_v15_apply, val_main_v17_apply,
    val_main_v20_apply, val_main_call0_v0_apply, val_main_call0_cst_apply]
  simp only [l15, r15, l17, r17, i20]
  rfl

/-- The second layer's stage: the same convolution of the first layer's result and ITS aggregate. -/
theorem layer2 : val_main_v41 (F := Ideal) x0 x1 x2 x3 x4 x5 x6 x7
    = Cert.Spec.conv (val_main_v22 (F := Ideal) x0 x1 x2 x3 x4) (val_main_v32 (F := Ideal) x0 x1 x2 x3 x4)
        (val_main_v33 (F := Ideal) x6) (val_main_v35 (F := Ideal) x5) (val_main_v38 (F := Ideal) x7) := by
  funext i
  obtain ⟨p, q, rfl⟩ : ∃ (p : Fin 50000) (q : Fin 128), i = ix2 p q := ⟨i 0, i 1, eq_ix2 i⟩
  rw [Cert.Spec.conv_ix2, val_main_v41_apply, val_main_v40_apply, val_main_v37_apply, val_main_v34_apply, val_main_v36_apply,
    val_main_v39_apply, val_main_call1_v0_apply, val_main_call1_cst_apply]
  simp only [l34, r34, l36, r36, i39]
  rfl

/-- The head's first stage: a clamped linear layer of the second layer's result. -/
theorem layer3 : val_main_v47 (F := Ideal) x0 x1 x2 x3 x4 x5 x6 x7 x8 x9
    = Cert.Spec.clamped (val_main_v41 (F := Ideal) x0 x1 x2 x3 x4 x5 x6 x7) (val_main_v42 (F := Ideal) x8)
        (val_main_v44 (F := Ideal) x9) := by
  funext i
  obtain ⟨p, q, rfl⟩ : ∃ (p : Fin 50000) (q : Fin 128), i = ix2 p q := ⟨i 0, i 1, eq_ix2 i⟩
  rw [Cert.Spec.clamped_ix2, val_main_v47_apply, val_main_v46_apply, val_main_v43_apply, val_main_v45_apply,
    val_main_call2_v0_apply, val_main_call2_cst_apply]
  simp only [l43, r43, i45]
  rfl

/-- The result at node p and class c: the last linear layer's sum over the 128 hidden features, plus the class's bias. -/
theorem result_at (p : Fin 50000) (c : Fin 10) :
    val_main_v52 (F := Ideal) x0 x1 x2 x3 x4 x5 x6 x7 x8 x9 x10 x11 (ix2 p c)
      = (∑ k : Fin 128, val_main_v47 (F := Ideal) x0 x1 x2 x3 x4 x5 x6 x7 x8 x9 (ix2 p k) * val_main_v48 (F := Ideal) x10 (ix2 k c))
          + val_main_v50 (F := Ideal) x11 (ix2 0 c) := by
  rw [val_main_v52_apply, val_main_v49_apply, val_main_v51_apply]
  simp only [l49, r49, i51]
  rfl

end Cert.ReferenceIdeal.RefValue

end
-- ==== Proof.KVal.lean ====
/-
  The kernel program's result, read back through its segments.

  The contents at each boundary of @main are a fold: a stretch of host operations applies its operations to what it
  finds, and a pipelined region replaces its output array by the layer of the arrays it was entered with (the three
  region lemmas). Reading the fold back from the result buffer: the result is the first ten columns of the head applied to
  the second convolution's output, which is the convolution of the first one's output and of its aggregate, which in
  turn is the convolution of the node features and of their aggregate. Every host stretch of the kernel program builds
  its operands exactly as the reference does — the index arithmetic on the edge list, the gather and the
  scatter-add, the transposes — so each array a region is entered with IS a stage of the reference. Two operands
  differ in spelling only: a bias reshaped to a row here is broadcast to a row there, and the last layer's weights and
  bias are padded with 118 rows of the pad value before the product, of which only the first ten columns are kept.
-/
import proofs.«165503_j75273596830207_1_alg».proof.Proof.KReg
import proofs.«165503_j75273596830207_1_alg».proof.Proof.RefVal
import Idealize.ShloMosaic.Lib.StableHlo.Run
import Idealize.ShloMosaic.Lib.KernelVsHost

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.StableHlo
open Cert.ReferenceIdeal.Read

/-! ## Two operands spelt differently -/

/-- A bias vector reshaped to a 1 × 128 row is the same row as the vector broadcast along a new leading axis. -/
theorem row_eq (x : (⟨1, ![128]⟩ : Shape).Idx → EReal) (h : (⟨1, ![128]⟩ : Shape).ShapeCasts ⟨2, ![1, 128]⟩)
    (hb : (⟨1, ![128]⟩ : Shape).BroadcastsInDim ⟨2, ![1, 128]⟩ ![1]) :
    (fun i => shapeCast (⟨2, ![1, 128]⟩ : Shape) x h i) = broadcastInDim (⟨2, ![1, 128]⟩ : Shape) ![1] hb x := by
  funext j
  refine (shapeCast_addUnit_apply ![128] x h j).trans ?_
  refine (broadcastInDim_apply ![1] hb x j (fun a => j a.succ) (fun a => match a with
    | ⟨0, _⟩ => by show (j 1).val = if (128 : Nat) = 1 then 0 else (j 1).val; rw [if_neg (by decide)])).symm

/-- The last layer's weights as the head receives them: the 10 × 128 matrix padded below to 128 rows, transposed. -/
def wpad (x : S10x128.Idx → EReal) (z : S_.Idx → EReal) : S128x128.Idx → EReal :=
  transpose S128x128 [1, 0] (pad S128x128 ![0, 0] ![118, 0] ![0, 0] x z pads_S10x128_S128x128_01180_000 h_S_)
    transposes_S128x128_S128x128_1_0

/-- The last layer's bias as the head receives it: the 10 entries padded to 128, as a row. -/
def bpad (x : S10.Idx → EReal) (z : S_.Idx → EReal) : S1x128.Idx → EReal :=
  fun i => shapeCast S1x128 (pad S128 ![0] ![118] ![0] x z pads_S10_S128_01180 h_S_) shapeCasts_S128_S1x128 i

/-- A padded, transposed weight at hidden feature k and class c < 10 is the reference's transposed weight there. -/
theorem wpad_at (x : S10x128.Idx → EReal) (z : S_.Idx → EReal) (k : Fin 128) (c : Fin 10) :
    wpad x z (ix2 k (⟨c.val, by have := c.isLt; omega⟩ : Fin 128)) = val_main_v48 (F := Ideal) x (ix2 k c) := by
  rw [val_main_v48_apply]
  unfold wpad
  refine (transpose_apply [1, 0] _ transposes_S128x128_S128x128_1_0 _ (ix2 (⟨c.val, by have := c.isLt; omega⟩ : Fin 128) k)
    (fun b => match b with | ⟨0, _⟩ => rfl | ⟨1, _⟩ => rfl)).trans ?_
  refine (pad_apply_of_inside ![0, 0] ![118, 0] ![0, 0] x z pads_S10x128_S128x128_01180_000 h_S_ _ (ix2 c k)
    (fun a => match a with
      | ⟨0, _⟩ => by show c.val = 0 + c.val * (0 + 1); omega
      | ⟨1, _⟩ => by show k.val = 0 + k.val * (0 + 1); omega)).trans ?_
  exact congrArg x (funext fun a => match a with | ⟨0, _⟩ => rfl | ⟨1, _⟩ => rfl)

/-- The padded bias row at class c < 10 is the reference's bias row there. -/
theorem bpad_at (x : S10.Idx → EReal) (z : S_.Idx → EReal) (c : Fin 10) :
    bpad x z (ix2 0 (⟨c.val, by have := c.isLt; omega⟩ : Fin 128)) = val_main_v50 (F := Ideal) x (ix2 0 c) := by
  rw [val_main_v50_apply]
  unfold bpad
  refine (shapeCast_addUnit_apply ![128] _ shapeCasts_S128_S1x128 _).trans ?_
  refine (pad_apply_of_inside ![0] ![118] ![0] x z pads_S10_S128_01180 h_S_ _ (ix1 c)
    (fun a => match a with
      | ⟨0, _⟩ => by show c.val = 0 + c.val * (0 + 1); omega)).trans ?_
  exact congrArg x (funext fun a => match a with | ⟨0, _⟩ => rfl)

variable (m : (ℓ : Loc nD τ sig) → Buf (Elt Ideal) ℓ) (ρ : Dev nD → PrngReg)

/-- The argument arrays at launch. -/
abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)
abbrev a4 (c : Dev nD) := m ((c.tc : Thread nD τ).loc main_arg4)
abbrev a5 (c : Dev nD) := m ((c.tc : Thread nD τ).loc main_arg5)
abbrev a6 (c : Dev nD) := m ((c.tc : Thread nD τ).loc main_arg6)
abbrev a7 (c : Dev nD) := m ((c.tc : Thread nD τ).loc main_arg7)
abbrev a8 (c : Dev nD) := m ((c.tc : Thread nD τ).loc main_arg8)
abbrev a9 (c : Dev nD) := m ((c.tc : Thread nD τ).loc main_arg9)
abbrev a10 (c : Dev nD) := m ((c.tc : Thread nD τ).loc main_arg10)
abbrev a11 (c : Dev nD) := m ((c.tc : Thread nD τ).loc main_arg11)

/-! ## Region 0 is entered with the reference's first-layer operands -/

theorem e0_x (c : Dev nD) : V1 m ρ c main_arg0 = a0 m c := by
  show StableHlo.after hostOps0 (W0 m ρ c) (Proc.devRef .tc main_arg0) = _
  after_results_simp <;> rfl
theorem e0_a (c : Dev nD) : V1 m ρ c main_v13 = val_main_v13 (F := Ideal) (a0 m c) (a1 m c) := by
  show StableHlo.after hostOps0 (W0 m ρ c) (Proc.devRef .tc main_v13) = _
  after_results_simp <;> rfl
theorem e0_r (c : Dev nD) : V1 m ρ c main_v14 = val_main_v14 (F := Ideal) (a3 m c) := by
  show StableHlo.after hostOps0 (W0 m ρ c) (Proc.devRef .tc main_v14) = _
  after_results_simp <;> rfl
theorem e0_n (c : Dev nD) : V1 m ρ c main_v15 = val_main_v16 (F := Ideal) (a2 m c) := by
  show StableHlo.after hostOps0 (W0 m ρ c) (Proc.devRef .tc main_v15) = _
  after_results_simp <;> rfl
theorem e0_b (c : Dev nD) : V1 m ρ c main_v16 = val_main_v19 (F := Ideal) (a4 m c) := by
  show StableHlo.after hostOps0 (W0 m ρ c) (Proc.devRef .tc main_v16) = _
  after_results_simp
  exact row_eq _ _ _

/-- After region 0 its output array holds the reference's first layer. -/
theorem h1 (c : Dev nD) : W2 m ρ c (Proc.devRef .tc main_v17) = val_main_v22 (F := Ideal) (a0 m c) (a1 m c) (a2 m c) (a3 m c) (a4 m c) :=
  (W2_arr m ρ c 5).trans ((Cert.KernelIdeal.Reg.arr0 (V1 m ρ) c).trans (by
    rw [e0_x, e0_a, e0_r, e0_n, e0_b]
    exact (Cert.ReferenceIdeal.RefValue.layer1 _ _ _ _ _).symm))

/-! ## What region 0 leaves of the other buffers: as the first host stretch wrote them -/

theorem w2_v1 (c : Dev nD) : W2 m ρ c (Proc.devRef .tc main_v1) = val_main_v1 (F := Ideal) (a1 m c) :=
  (W2_of_ne m ρ c main_v1 (by decide)).trans (by
    show StableHlo.after hostOps0 (W0 m ρ c) (Proc.devRef .tc main_v1) = _
    after_results_simp <;> rfl)
theorem w2_v3 (c : Dev nD) : W2 m ρ c (Proc.devRef .tc main_v3) = val_main_v3 (F := Ideal) (a1 m c) :=
  (W2_of_ne m ρ c main_v3 (by decide)).trans (by
    show StableHlo.after hostOps0 (W0 m ρ c) (Proc.devRef .tc main_v3) = _
    after_results_simp <;> rfl)
theorem w2_a2 (c : Dev nD) : W2 m ρ c (Proc.devRef .tc main_arg2) = a2 m c :=
  (W2_of_ne m ρ c main_arg2 (by decide)).trans (by
    show StableHlo.after hostOps0 (W0 m ρ c) (Proc.devRef .tc main_arg2) = _
    after_results_simp <;> rfl)
theorem w2_a3 (c : Dev nD) : W2 m ρ c (Proc.devRef .tc main_arg3) = a3 m c :=
  (W2_of_ne m ρ c main_arg3 (by decide)).trans (by
    show StableHlo.after hostOps0 (W0 m ρ c) (Proc.devRef .tc main_arg3) = _
    after_results_simp <;> rfl)
theorem w2_a4 (c : Dev nD) : W2 m ρ c (Proc.devRef .tc main_arg4) = a4 m c :=
  (W2_of_ne m ρ c main_arg4 (by decide)).trans (by
    show StableHlo.after hostOps0 (W0 m ρ c) (Proc.devRef .tc main_arg4) = _
    after_results_simp <;> rfl)
theorem w2_a5 (c : Dev nD) : W2 m ρ c (Proc.devRef .tc main_arg5) = a5 m c :=
  (W2_of_ne m ρ c main_arg5 (by decide)).trans (by
    show StableHlo.after hostOps0 (W0 m ρ c) (Proc.devRef .tc main_arg5) = _
    after_results_simp <;> rfl)
theorem w2_a6 (c : Dev nD) : W2 m ρ c (Proc.devRef .tc main_arg6) = a6 m c :=
  (W2_of_ne m ρ c main_arg6 (by decide)).trans (by
    show StableHlo.after hostOps0 (W0 m ρ c) (Proc.devRef .tc main_arg6) = _
    after_results_simp <;> rfl)
theorem w2_a7 (c : Dev nD) : W2 m ρ c (Proc.devRef .tc main_arg7) = a7 m c :=
  (W2_of_ne m ρ c main_arg7 (by decide)).trans (by
    show StableHlo.after hostOps0 (W0 m ρ c) (Proc.devRef .tc main_arg7) = _
    after_results_simp <;> rfl)
theorem w2_a8 (c : Dev nD) : W2 m ρ c (Proc.devRef .tc main_arg8) = a8 m c :=
  (W2_of_ne m ρ c main_arg8 (by decide)).trans (by
    show StableHlo.after hostOps0 (W0 m ρ c) (Proc.devRef .tc main_arg8) = _
    after_results_simp <;> rfl)
theorem w2_a9 (c : Dev nD) : W2 m ρ c (Proc.devRef .tc main_arg9) = a9 m c :=
  (W2_of_ne m ρ c main_arg9 (by decide)).trans (by
    show StableHlo.after hostOps0 (W0 m ρ c) (Proc.devRef .tc main_arg9) = _
    after_results_simp <;> rfl)
theorem w2_a10 (c : Dev nD) : W2 m ρ c (Proc.devRef .tc main_arg10) = a10 m c :=
  (W2_of_ne m ρ c main_arg10 (by decide)).trans (by
    show StableHlo.after hostOps0 (W0 m ρ c) (Proc.devRef .tc main_arg10) = _
    after_results_simp <;> rfl)
theorem w2_a11 (c : Dev nD) : W2 m ρ c (Proc.devRef .tc main_arg11) = a11 m c :=
  (W2_of_ne m ρ c main_arg11 (by decide)).trans (by
    show StableHlo.after hostOps0 (W0 m ρ c) (Proc.devRef .tc main_arg11) = _
    after_results_simp <;> rfl)

/-! ## Region 1 is entered with the reference's second-layer operands -/

theorem e1_x (c : Dev nD) : V3 m ρ c main_v17 = val_main_v22 (F := Ideal) (a0 m c) (a1 m c) (a2 m c) (a3 m c) (a4 m c) := by
  show StableHlo.after hostOps1 (W2 m ρ c) (Proc.devRef .tc main_v17) = _
  after_results_simp
  exact h1 m ρ c
theorem e1_a (c : Dev nD) : V3 m ρ c main_v27 = val_main_v32 (F := Ideal) (a0 m c) (a1 m c) (a2 m c) (a3 m c) (a4 m c) := by
  show StableHlo.after hostOps1 (W2 m ρ c) (Proc.devRef .tc main_v27) = _
  after_results_simp
  rw [h1, w2_v1, w2_v3]
  rfl
theorem e1_r (c : Dev nD) : V3 m ρ c main_v28 = val_main_v33 (F := Ideal) (a6 m c) := by
  show StableHlo.after hostOps1 (W2 m ρ c) (Proc.devRef .tc main_v28) = _
  after_results_simp
  rw [w2_a6]
  rfl
theorem e1_n (c : Dev nD) : V3 m ρ c main_v29 = val_main_v35 (F := Ideal) (a5 m c) := by
  show StableHlo.after hostOps1 (W2 m ρ c) (Proc.devRef .tc main_v29) = _
  after_results_simp
  rw [w2_a5]
  rfl
theorem e1_b (c : Dev nD) : V3 m ρ c main_v30 = val_main_v38 (F := Ideal) (a7 m c) := by
  show StableHlo.after hostOps1 (W2 m ρ c) (Proc.devRef .tc main_v30) = _
  after_results_simp
  rw [w2_a7]
  exact row_eq _ _ _

/-- After region 1 its output array holds the reference's second layer. -/
theorem h2 (c : Dev nD) : W4 m ρ c (Proc.devRef .tc main_v31) = val_main_v41 (F := Ideal) (a0 m c) (a1 m c) (a2 m c) (a3 m c) (a4 m c) (a5 m c) (a6 m c) (a7 m c) :=
  (W4_arr m ρ c 5).trans ((Cert.KernelIdeal.Reg.arr1 (V3 m ρ) c).trans (by
    rw [e1_x, e1_a, e1_r, e1_n, e1_b]
    exact (Cert.ReferenceIdeal.RefValue.layer2 _ _ _ _ _ _ _ _).symm))

theorem w4_a8 (c : Dev nD) : W4 m ρ c (Proc.devRef .tc main_arg8) = a8 m c :=
  (W4_of_ne m ρ c main_arg8 (by decide)).trans (by
    show StableHlo.after hostOps1 (W2 m ρ c) (Proc.devRef .tc main_arg8) = _
    after_results_simp
    exact w2_a8 m ρ c)
theorem w4_a9 (c : Dev nD) : W4 m ρ c (Proc.devRef .tc main_arg9) = a9 m c :=
  (W4_of_ne m ρ c main_arg9 (by decide)).trans (by
    show StableHlo.after hostOps1 (W2 m ρ c) (Proc.devRef .tc main_arg9) = _
    after_results_simp
    exact w2_a9 m ρ c)
theorem w4_a10 (c : Dev nD) : W4 m ρ c (Proc.devRef .tc main_arg10) = a10 m c :=
  (W4_of_ne m ρ c main_arg10 (by decide)).trans (by
    show StableHlo.after hostOps1 (W2 m ρ c) (Proc.devRef .tc main_arg10) = _
    after_results_simp
    exact w2_a10 m ρ c)
theorem w4_a11 (c : Dev nD) : W4 m ρ c (Proc.devRef .tc main_arg11) = a11 m c :=
  (W4_of_ne m ρ c main_arg11 (by decide)).trans (by
    show StableHlo.after hostOps1 (W2 m ρ c) (Proc.devRef .tc main_arg11) = _
    after_results_simp
    exact w2_a11 m ρ c)

/-! ## Region 2 is entered with the second layer, the head's first weights and bias, and the padded last ones -/

theorem e2_x (c : Dev nD) : V9 m ρ c main_v31 = val_main_v41 (F := Ideal) (a0 m c) (a1 m c) (a2 m c) (a3 m c) (a4 m c) (a5 m c) (a6 m c) (a7 m c) := by
  show StableHlo.after hostOps2_4 (StableHlo.after hostOps2_3 (StableHlo.after hostOps2_2 (StableHlo.after hostOps2_1
      (StableHlo.after hostOps2 (W4 m ρ c))))) (Proc.devRef .tc main_v31) = _
  after_results_simp
  exact h2 m ρ c
theorem e2_w (c : Dev nD) : V9 m ρ c main_v34 = val_main_v42 (F := Ideal) (a8 m c) := by
  show StableHlo.after hostOps2_4 (StableHlo.after hostOps2_3 (StableHlo.after hostOps2_2 (StableHlo.after hostOps2_1
      (StableHlo.after hostOps2 (W4 m ρ c))))) (Proc.devRef .tc main_v34) = _
  after_results_simp
  rw [w4_a8]
  rfl
theorem e2_b (c : Dev nD) : V9 m ρ c main_v36 = val_main_v44 (F := Ideal) (a9 m c) := by
  show StableHlo.after hostOps2_4 (StableHlo.after hostOps2_3 (StableHlo.after hostOps2_2 (StableHlo.after hostOps2_1
      (StableHlo.after hostOps2 (W4 m ρ c))))) (Proc.devRef .tc main_v36) = _
  after_results_simp
  rw [w4_a9]
  exact row_eq _ _ _
theorem e2_w' (c : Dev nD) : V9 m ρ c main_v35 = wpad (a10 m c) (sitofp (F := Ideal) .f32 (constantI S_ 32 0#32)) := by
  show StableHlo.after hostOps2_4 (StableHlo.after hostOps2_3 (StableHlo.after hostOps2_2 (StableHlo.after hostOps2_1
      (StableHlo.after hostOps2 (W4 m ρ c))))) (Proc.devRef .tc main_v35) = _
  after_results_simp
  rw [w4_a10]
  rfl
theorem e2_b' (c : Dev nD) : V9 m ρ c main_v37 = bpad (a11 m c) (sitofp (F := Ideal) .f32 (constantI S_ 32 0#32)) := by
  show StableHlo.after hostOps2_4 (StableHlo.after hostOps2_3 (StableHlo.after hostOps2_2 (StableHlo.after hostOps2_1
      (StableHlo.after hostOps2 (W4 m ρ c))))) (Proc.devRef .tc main_v37) = _
  after_results_simp
  rw [w4_a11]
  rfl

/-- After region 2 its output array holds the head of the second layer, on the padded last weights. -/
theorem h3 (c : Dev nD) : W10 m ρ c (Proc.devRef .tc main_v38)
    = Cert.Spec.head (val_main_v41 (F := Ideal) (a0 m c) (a1 m c) (a2 m c) (a3 m c) (a4 m c) (a5 m c) (a6 m c) (a7 m c)) (val_main_v42 (F := Ideal) (a8 m c))
        (val_main_v44 (F := Ideal) (a9 m c)) (wpad (a10 m c) (sitofp (F := Ideal) .f32 (constantI S_ 32 0#32)))
        (bpad (a11 m c) (sitofp (F := Ideal) .f32 (constantI S_ 32 0#32))) :=
  (W10_arr m ρ c 5).trans ((Cert.KernelIdeal.Reg.arr2 (V9 m ρ) c).trans (by
    rw [e2_x, e2_w, e2_b, e2_w', e2_b']))

/-! ## The result -/

/-- THE KERNEL PROGRAM'S RESULT is the reference's: at node p and class c both are the last linear layer's sum over
    the hidden features of the clamped layer before it, plus the class's bias. -/
theorem result_eq (c : Dev nD) :
    W11 m ρ c (Proc.devRef .tc main_v39) = val_main_v52 (F := Ideal) (a0 m c) (a1 m c) (a2 m c) (a3 m c) (a4 m c) (a5 m c) (a6 m c) (a7 m c) (a8 m c) (a9 m c) (a10 m c) (a11 m c) := by
  show StableHlo.after hostOps3 (W10 m ρ c) (Proc.devRef .tc main_v39) = _
  after_results_simp
  rw [h3]
  funext i
  obtain ⟨p, q, rfl⟩ : ∃ (p : Fin 50000) (q : Fin 10), i = ix2 p q := ⟨i 0, i 1, eq_ix2 i⟩
  refine (extractStridedSlice_apply ![0, 0] _ slices_S50000x128_S50000x10_0_0 (ix2 p q)
    (ix2 p (⟨q.val, by have := q.isLt; omega⟩ : Fin 128)) (fun a => match a with
      | ⟨0, _⟩ => by show p.val = 0 + p.val; omega
      | ⟨1, _⟩ => by show q.val = 0 + q.val; omega)).trans ?_
  rw [Cert.Spec.head_ix2, Cert.ReferenceIdeal.RefValue.result_at, Cert.ReferenceIdeal.RefValue.layer3]
  unfold Cert.Spec.headAt Cert.Spec.prod
  simp only [wpad_at, bpad_at]

end Cert.KernelIdeal.Val

end
-- ==== Proof.lean ====
/-
  A two-layer graph network with a two-layer head, tiled for the accelerator, computes what its plain array-level
  reference computes, as functions of extended reals.

  Both programs aggregate neighbour features with the same gather and scatter-add over the edge list, apply
  max((X·Rᵀ + A·Nᵀ) + b, 0) twice, then a clamped linear layer and a last linear layer onto ten classes. The
  tiled program runs the three dense stages as pipelined regions over ten tiles of 5000 nodes, with every matrix
  product's operands cast to a narrower float format (the identity on extended reals) and the last layer's ten
  output columns padded to 128 and cut back afterwards. A node's row of a dense stage depends only on that node's
  rows of the stage's inputs, so the tiles are the tiles of the whole-array stage (Proof/KReg.lean over the
  per-entry reading of the bodies in Proof/KPay.lean); the regions' entry arrays are the reference's stages
  (Proof/KVal.lean, against Proof/RefVal.lean); the padded columns that are kept read the unpadded weights. No law
  beyond the definitions of the sums is used, so the finiteness precondition is never opened.

  The frames of the two kernel programs are the generated ones; the reference's frame is its generated run with the
  result dropped; the idealization rewrote nothing, so there is nothing to preserve.
-/
import proofs.«165503_j75273596830207_1_alg».proof.Defs
import proofs.«165503_j75273596830207_1_alg».proof.Proof.Gen.Kernel
import proofs.«165503_j75273596830207_1_alg».proof.Proof.Gen.Kernel.Frame
import proofs.«165503_j75273596830207_1_alg».proof.Proof.Gen.KernelIdeal
import proofs.«165503_j75273596830207_1_alg».proof.Proof.Gen.KernelIdeal.Frame
import proofs.«165503_j75273596830207_1_alg».proof.Proof.Gen.ReferenceIdeal
import proofs.«165503_j75273596830207_1_alg».proof.Proof.Gen.ReferenceIdeal.Read
import proofs.«165503_j75273596830207_1_alg».proof.Proof.Gen.Pre_finite_inputs
import proofs.«165503_j75273596830207_1_alg».proof.Proof.KRun
import proofs.«165503_j75273596830207_1_alg».proof.Proof.KVal
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the twelve arguments both programs run, and the reference's result array is the
    tiled program's: the tiled program ends at the fold of its segments read at the result buffer, which is the
    reference's last stage of the same arguments. -/
theorem algebraic : Cert.algebraic_KernelIdeal_ReferenceIdeal := by
  intro m ρ m' ρ' _ hagree
  refine ⟨fun c => Cert.KernelIdeal.Gen.W11 m ρ c (Proc.devRef .tc Cert.KernelIdeal.main_v39),
    Cert.KernelIdeal.Out.run m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6, g7, g8, g9, g10, g11⟩ := hagree c
  rw [Cert.ReferenceIdeal.Read.val_main_v52_eq, g0, g1, g2, g3, g4, g5, g6, g7, g8, g9, g10, g11]
  exact (Cert.KernelIdeal.Val.result_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
